-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x28x28 : Shape := ⟨4, ![32, 1024, 28, 28]⟩
abbrev S_ : Shape := ⟨0, ![]⟩

class Facts : Prop where
  bcast_S_S32x1024x28x28 : S_.BroadcastsInDim S32x1024x28x28 (![] : Fin 0 → Fin S32x1024x28x28.rank)
  reducesTo_S32x1024x28x28_S_d0_1_2_3 : S32x1024x28x28.ReducesTo [0, 1, 2, 3] S_
  h_S_ : 0 < S_.numel

variable [Facts]

def fn {F : FTy → Type} [FloatOps F] (main_arg0 : FVec F S32x1024x28x28 .f32) : IVec S_ 1 :=
  let main_v0 : FVec F S32x1024x28x28 .f32 := Host.absf main_arg0
  let main_cst : FVec F S_ .f32 := constant S_ .f32 0x7F800000#32
  let main_v1 : FVec F S32x1024x28x28 .f32 := broadcastInDim S32x1024x28x28 ![] bcast_S_S32x1024x28x28 main_cst
  let main_v2 : IVec S32x1024x28x28 1 := cmpf .olt main_v0 main_v1
  let main_c : IVec S_ 1 := constantI S_ 1 1#1
  let main_v3 : IVec S_ 1 := (fun x v => Host.reduce IntOp.andi x v reducesTo_S32x1024x28x28_S_d0_1_2_3 h_S_) main_v2 main_c
  main_v3
-- ==== Kernel.lean ====
abbrev S32x1024x28x28 : Shape := ⟨4, ![32, 1024, 28, 28]⟩
abbrev S32x1024x784 : Shape := ⟨3, ![32, 1024, 784]⟩
abbrev S1x1024x784 : Shape := ⟨3, ![1, 1024, 784]⟩
abbrev S1024x784 : Shape := ⟨2, ![1024, 784]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 4
  | .smem => 0
  | _ => 0

abbrev bufTy : (tb : Table) → Fin (tcTables nBuf tb) → BufTy
  | .hbm, ⟨0, _⟩ => ⟨S32x1024x28x28, .f32⟩
  | .hbm, ⟨1, _⟩ => ⟨S32x1024x784, .f32⟩
  | .hbm, ⟨2, _⟩ => ⟨S32x1024x784, .f32⟩
  | .hbm, ⟨3, _⟩ => ⟨S32x1024x28x28, .f32⟩
  | .local _ .vmem, ⟨0, _⟩ => ⟨S1x1024x784, .f32⟩
  | .local _ .vmem, ⟨1, _⟩ => ⟨S1x1024x784, .f32⟩
  | .local _ .vmem, ⟨2, _⟩ => ⟨S1x1024x784, .f32⟩
  | .local _ .vmem, ⟨3, _⟩ => ⟨S1x1024x784, .f32⟩
  | _, _ => ⟨S32x1024x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x1024x28x28_S32x1024x784 : S32x1024x28x28.ShapeCasts S32x1024x784
  inb_S1x1024x784_S1x1024x784_0_0_0 : ∀ a, (![0, 0, 0] : Fin 3 → Nat) a + S1x1024x784.size a ≤ S1x1024x784.size a
  h_S1x1024x784 : 0 < S1x1024x784.numel
  shapeCasts_S1x1024x784_S1024x784 : S1x1024x784.ShapeCasts S1024x784
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  shapeCasts_S1024x784_S1x1024x784 : S1024x784.ShapeCasts S1x1024x784
  shapeCasts_S32x1024x784_S32x1024x28x28 : S32x1024x784.ShapeCasts S32x1024x28x28
  dot_S1024x784_S1024x784_S1024x1024_1_1_0_0_n_n_wf : DotDims.WF S1024x784 S1024x784 S1024x1024 [1] [1] [0] [0] [] []
  dot_S1024x1024_S1024x784_S1024x784_1_0_0_1_n_n_wf : DotDims.WF S1024x1024 S1024x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x784.size a ≤ S32x1024x784.size a
  hwx0_0 : ∀ i : grid0.Coords, EltTy.bits .f32 = 32 ∨ (Rect.block (s := S32x1024x784) S1x1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x784.size a ≤ S32x1024x784.size a
  hwx0_1 : ∀ i : grid0.Coords, EltTy.bits .f32 = 32 ∨ (Rect.block (s := S32x1024x784) S1x1024x784.size (cc0_transform_1 i) (hinb0_1 i)).WholeWords (EltTy.packing .f32)

variable [Facts₀]

def dot_S1024x784_S1024x784_S1024x1024_1_1_0_0_n_n : DotDims S1024x784 S1024x784 S1024x1024 where
  lhsContracting := [1]
  rhsContracting := [1]
  lhsNonContracting := [0]
  rhsNonContracting := [0]
  lhsBatch := []
  rhsBatch := []
  wf := dot_S1024x784_S1024x784_S1024x1024_1_1_0_0_n_n_wf
def dot_S1024x1024_S1024x784_S1024x784_1_0_0_1_n_n : DotDims S1024x1024 S1024x784 S1024x784 where
  lhsContracting := [1]
  rhsContracting := [0]
  lhsNonContracting := [0]
  rhsNonContracting := [1]
  lhsBatch := []
  rhsBatch := []
  wf := dot_S1024x1024_S1024x784_S1024x784_1_0_0_1_n_n_wf

abbrev win0_0 : Pipeline.Window sig grid0 :=
  Pipeline.Window.ofSpec (Memref.whole main_v0) S1x1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x784.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x28x28 : Shape := ⟨4, ![32, 1024, 28, 28]⟩
abbrev S32x1024x784 : Shape := ⟨3, ![32, 1024, 784]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x1024x28x28, .f32⟩
  | .hbm, ⟨1, _⟩ => ⟨S32x1024x784, .f32⟩
  | .hbm, ⟨2, _⟩ => ⟨S32x1024x1024, .f32⟩
  | .hbm, ⟨3, _⟩ => ⟨S_, .f32⟩
  | .hbm, ⟨4, _⟩ => ⟨S32x1024x1024, .f32⟩
  | .hbm, ⟨5, _⟩ => ⟨S32x1024x1024, .f32⟩
  | .hbm, ⟨6, _⟩ => ⟨S_, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024x1, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S_, .f32⟩
  | .hbm, ⟨16, _⟩ => ⟨S32x1024, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x784, .f32⟩
  | .hbm, ⟨21, _⟩ => ⟨S32x1024x28x28, .f32⟩
  | .hbm, ⟨22, _⟩ => ⟨S32x1024x28x28, .f32⟩
  | _, _ => ⟨S32x1024x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  shapeCasts_S32x1024x28x28_S32x1024x784 : S32x1024x28x28.ShapeCasts S32x1024x784
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  shapeCasts_S32x1024x784_S32x1024x28x28 : S32x1024x784.ShapeCasts S32x1024x28x28
  dot_S32x1024x784_S32x1024x784_S32x1024x1024_2_2_1_1_0_0_wf : DotDims.WF S32x1024x784 S32x1024x784 S32x1024x1024 [2] [2] [1] [1] [0] [0]
  dot_S32x1024x1024_S32x1024x784_S32x1024x784_2_1_1_2_0_0_wf : DotDims.WF S32x1024x1024 S32x1024x784 S32x1024x784 [2] [1] [1] [2] [0] [0]

variable [Facts₀]

def dot_S32x1024x784_S32x1024x784_S32x1024x1024_2_2_1_1_0_0 : DotDims S32x1024x784 S32x1024x784 S32x1024x1024 where
  lhsContracting := [2]
  rhsContracting := [2]
  lhsNonContracting := [1]
  rhsNonContracting := [1]
  lhsBatch := [0]
  rhsBatch := [0]
  wf := dot_S32x1024x784_S32x1024x784_S32x1024x1024_2_2_1_1_0_0_wf
def dot_S32x1024x1024_S32x1024x784_S32x1024x784_2_1_1_2_0_0 : DotDims S32x1024x1024 S32x1024x784 S32x1024x784 where
  lhsContracting := [2]
  rhsContracting := [1]
  lhsNonContracting := [1]
  rhsNonContracting := [2]
  lhsBatch := [0]
  rhsBatch := [0]
  wf := dot_S32x1024x1024_S32x1024x784_S32x1024x784_2_1_1_2_0_0_wf

class Facts : Prop extends Facts₀ where

variable [Facts]
-- ==== Proof.Spec.lean ====
/-
  Channel attention with a residual, on one batch element's channel matrix M (1024 channels by 784 positions):
  the score of channels i and j is a fixed scale times the inner product of rows i and j; each row of scores
  is shifted by its largest entry and exponentiated; a row's weights are these exponentials divided by their sum;
  row i of the mixture is the weighted sum of the rows of M. The result is the input plus the mixture.

  Everything is on the extended reals, where addition and the maximum are commutative and associative, so the
  sums and the row maximum below do not depend on an order. The two constants are kept as the words both programs
  hold: the scale 0x3D000000 (one thirty-second) and 0xFF800000 (minus infinity), which starts the row
  maximum and is joined to it once more.
-/
import Idealize.ShloMosaic.PureOps.Ideal
import Idealize.ShloMosaic.PureOps.Ideal.Laws
import Idealize.ShloMosaic.Lib.ValueIdx

noncomputable section

namespace Cert.ChannelAttention

open Idealize.ShloMosaic Idealize.ShloMosaic.ValueIdx

/-- The input and result: 32 batch elements, 1024 channels, 28 by 28 positions. -/
abbrev Arr4 : Shape := ⟨4, ![32, 1024, 28, 28]⟩
/-- The same with the positions in one axis of 784. -/
abbrev Arr3 : Shape := ⟨3, ![32, 1024, 784]⟩

/-- One batch element's channel matrix. -/
abbrev Slab : Type := Fin 1024 → Fin 784 → EReal

/-- The scale of the scores, as the word both programs hold. -/
def scale : EReal := Ideal.ofBits .f32 0x3D000000#32
/-- The value a row maximum starts from, as the word both programs hold. -/
def negInf : EReal := Ideal.ofBits .f32 0xFF800000#32

/-- The scaled inner product of rows i and j. -/
def score (M : Slab) (i j : Fin 1024) : EReal := scale * ∑ d : Fin 784, M i d * M j d

/-- The largest score in row i. -/
def rowMax (M : Slab) (i : Fin 1024) : EReal :=
  max negInf ((Finset.univ : Finset (Fin 1024)).fold max negInf fun j => score M i j)

/-- The exponential of a score shifted by its row's maximum. -/
def weight (M : Slab) (i j : Fin 1024) : EReal := Ideal.exp (score M i j - rowMax M i)

/-- The sum of row i's exponentials. -/
def total (M : Slab) (i : Fin 1024) : EReal := ∑ j : Fin 1024, weight M i j

/-- The attention of channel i to channel j. -/
def attn (M : Slab) (i j : Fin 1024) : EReal := Ideal.div (weight M i j) (total M i)

/-- Row i of the mixture at position d: the rows of M weighted by row i's attention. -/
def mix (M : Slab) (i : Fin 1024) (d : Fin 784) : EReal := ∑ j : Fin 1024, attn M i j * M j d

/-- Batch element b of a [32, 1024, 784] array. -/
def slab (X : Arr3.Idx → EReal) (b : Fin 32) : Slab := fun r d => X (ix3 b r d)

/-- The mixture of every batch element. -/
def mixAll (X : Arr3.Idx → EReal) : Arr3.Idx → EReal := fun i => mix (slab X (i 0)) (i 1) (i 2)

/-- Input plus mixture, batch element by batch element. -/
def residual (X : Arr3.Idx → EReal) : Arr3.Idx → EReal := fun i => X i + mixAll X i

theorem mixAll_ix3 (X : Arr3.Idx → EReal) (b : Fin 32) (r : Fin 1024) (d : Fin 784) :
    mixAll X (ix3 b r d) = mix (slab X b) r d := rfl

/-- The whole result: the input plus the mixture of the input with its positions flattened, the positions
    unflattened again. -/
def result (h1 : Arr4.ShapeCasts Arr3) (h2 : Arr3.ShapeCasts Arr4) (x : Arr4.Idx → EReal) : Arr4.Idx → EReal :=
  fun i => x i + shapeCast Arr4 (mixAll (shapeCast Arr3 x h1)) h2 i

end Cert.ChannelAttention

end
-- ==== Proof.Body.lean ====
/-
  What the kernel body computes from one block, read at an index.

  The body receives one batch element's channel matrix as a [1, 1024, 784] block, drops the unit axis, and computes
  on the [1024, 784] matrix v: the matrix of inner products of the rows of v (a product into a zero accumulator, so
  the plain sum over the 784 positions), scaled; the row maxima (a lane maximum from minus infinity, joined with minus
  infinity once more); the exponentials of the shifted scores; their row sums; the quotients; the product of the
  quotient matrix with v (the sum over the 1024 channels); and v plus that product. Narrowing to sixteen bits before
  each product changes nothing on the extended reals. Each step is read at an index below, and together they are the
  specification's functions of the matrix (fun r d => v (r, d)).
-/
import proofs.«147834_j25323127177327_1_alg».proof.Proof.Gen.KernelIdeal.Skeleton
import proofs.«147834_j25323127177327_1_alg».proof.Proof.Spec
import Idealize.ShloMosaic.PureOps.Ideal.Laws
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen Cert.ChannelAttention

/-! ## The two matrix products at an index -/

/-- The operand indices of the first product at output (i, j) and contraction coordinate q: the left operand is read
    at (i, q), the right at (j, q). -/
theorem gram_lhs0 (i : S1024x1024.Idx) (q : dot_S1024x784_S1024x784_S1024x1024_1_1_0_0_n_n.contr.Idx) : (dot_S1024x784_S1024x784_S1024x1024_1_1_0_0_n_n.lhsIdx i q 0).val = (i 0).val := by
  unfold DotDims.lhsIdx
  rw [dif_neg (show ¬(0 : Fin S1024x784.rank) ∈ dot_S1024x784_S1024x784_S1024x1024_1_1_0_0_n_n.lhsBatch by decide), dif_pos (show (0 : Fin S1024x784.rank) ∈ dot_S1024x784_S1024x784_S1024x1024_1_1_0_0_n_n.lhsNonContracting by decide)]
  rfl
theorem gram_lhs1 (i : S1024x1024.Idx) (q : dot_S1024x784_S1024x784_S1024x1024_1_1_0_0_n_n.contr.Idx) : (dot_S1024x784_S1024x784_S1024x1024_1_1_0_0_n_n.lhsIdx i q 1).val = (q ⟨0, by decide⟩).val :=
  dot_S1024x784_S1024x784_S1024x1024_1_1_0_0_n_n.lhsIdx_val_of_single rfl i q
theorem gram_rhs0 (i : S1024x1024.Idx) (q : dot_S1024x784_S1024x784_S1024x1024_1_1_0_0_n_n.contr.Idx) : (dot_S1024x784_S1024x784_S1024x1024_1_1_0_0_n_n.rhsIdx i q 0).val = (i 1).val := by
  unfold DotDims.rhsIdx
  rw [dif_neg (show ¬(0 : Fin S1024x784.rank) ∈ dot_S1024x784_S1024x784_S1024x1024_1_1_0_0_n_n.rhsBatch by decide), dif_pos (show (0 : Fin S1024x784.rank) ∈ dot_S1024x784_S1024x784_S1024x1024_1_1_0_0_n_n.rhsNonContracting by decide)]
  rfl
theorem gram_rhs1 (i : S1024x1024.Idx) (q : dot_S1024x784_S1024x784_S1024x1024_1_1_0_0_n_n.contr.Idx) : (dot_S1024x784_S1024x784_S1024x1024_1_1_0_0_n_n.rhsIdx i q 1).val = (q ⟨0, by decide⟩).val :=
  dot_S1024x784_S1024x784_S1024x1024_1_1_0_0_n_n.rhsIdx_val_of_single rfl i q

/-- The product of a [1024, 784] matrix with its own transpose, into zero: entry (i, j) is the sum over the
    positions of the products of rows i and j. -/
theorem gram_apply (v : FVec Ideal S1024x784 .bf16) (i j : Fin 1024) :
    matmul dot_S1024x784_S1024x784_S1024x1024_1_1_0_0_n_n none v v (constant (F := Ideal) S1024x1024 .f32 0x00000000#32) (ix2 i j)
      = ∑ d : Fin 784, v (ix2 i d) * v (ix2 j d) := by
  refine (Ideal.matmul_constant_zero_apply dot_S1024x784_S1024x784_S1024x1024_1_1_0_0_n_n none v v (ix2 i j)).trans ?_
  rw [← Equiv.sum_comp (contrEquiv1 dot_S1024x784_S1024x784_S1024x1024_1_1_0_0_n_n 784 rfl rfl).symm]
  refine Finset.sum_congr rfl fun k _ => ?_
  have hk := contrEquiv1_symm_val dot_S1024x784_S1024x784_S1024x1024_1_1_0_0_n_n 784 rfl rfl k
  have el : dot_S1024x784_S1024x784_S1024x1024_1_1_0_0_n_n.lhsIdx (ix2 i j) ((contrEquiv1 dot_S1024x784_S1024x784_S1024x1024_1_1_0_0_n_n 784 rfl rfl).symm k) = ix2 i k := funext fun a => Fin.ext (by
    match a with
    | ⟨0, _⟩ => exact gram_lhs0 _ _
    | ⟨1, _⟩ => exact (gram_lhs1 _ _).trans hk)
  have er : dot_S1024x784_S1024x784_S1024x1024_1_1_0_0_n_n.rhsIdx (ix2 i j) ((contrEquiv1 dot_S1024x784_S1024x784_S1024x1024_1_1_0_0_n_n 784 rfl rfl).symm k) = ix2 j k := funext fun a => Fin.ext (by
    match a with
    | ⟨0, _⟩ => exact gram_rhs0 _ _
    | ⟨1, _⟩ => exact (gram_rhs1 _ _).trans hk)
  rw [el, er]

/-- The operand indices of the second product at output (i, d) and contraction coordinate q: the left operand is read
    at (i, q), the right at (q, d). -/
theorem mix_lhs0 (i : S1024x784.Idx) (q : dot_S1024x1024_S1024x784_S1024x784_1_0_0_1_n_n.contr.Idx) : (dot_S1024x1024_S1024x784_S1024x784_1_0_0_1_n_n.lhsIdx i q 0).val = (i 0).val := by
  unfold DotDims.lhsIdx
  rw [dif_neg (show ¬(0 : Fin S1024x1024.rank) ∈ dot_S1024x1024_S1024x784_S1024x784_1_0_0_1_n_n.lhsBatch by decide), dif_pos (show (0 : Fin S1024x1024.rank) ∈ dot_S1024x1024_S1024x784_S1024x784_1_0_0_1_n_n.lhsNonContracting by decide)]
  rfl
theorem mix_lhs1 (i : S1024x784.Idx) (q : dot_S1024x1024_S1024x784_S1024x784_1_0_0_1_n_n.contr.Idx) : (dot_S1024x1024_S1024x784_S1024x784_1_0_0_1_n_n.lhsIdx i q 1).val = (q ⟨0, by decide⟩).val :=
  dot_S1024x1024_S1024x784_S1024x784_1_0_0_1_n_n.lhsIdx_val_of_single rfl i q
theorem mix_rhs0 (i : S1024x784.Idx) (q : dot_S1024x1024_S1024x784_S1024x784_1_0_0_1_n_n.contr.Idx) : (dot_S1024x1024_S1024x784_S1024x784_1_0_0_1_n_n.rhsIdx i q 0).val = (q ⟨0, by decide⟩).val :=
  dot_S1024x1024_S1024x784_S1024x784_1_0_0_1_n_n.rhsIdx_val_of_single rfl i q
theorem mix_rhs1 (i : S1024x784.Idx) (q : dot_S1024x1024_S1024x784_S1024x784_1_0_0_1_n_n.contr.Idx) : (dot_S1024x1024_S1024x784_S1024x784_1_0_0_1_n_n.rhsIdx i q 1).val = (i 1).val := by
  unfold DotDims.rhsIdx
  rw [dif_neg (show ¬(1 : Fin S1024x784.rank) ∈ dot_S1024x1024_S1024x784_S1024x784_1_0_0_1_n_n.rhsBatch by decide), dif_pos (show (1 : Fin S1024x784.rank) ∈ dot_S1024x1024_S1024x784_S1024x784_1_0_0_1_n_n.rhsNonContracting by decide)]
  rfl

/-- The product of a [1024, 1024] matrix with a [1024, 784] matrix, into zero: entry (i, d) is the sum over the
    channels k of a (i, k) times v (k, d). -/
theorem mixProd_apply (a : FVec Ideal S1024x1024 .bf16) (v : FVec Ideal S1024x784 .bf16) (i : Fin 1024) (d : Fin 784) :
    matmul dot_S1024x1024_S1024x784_S1024x784_1_0_0_1_n_n none a v (constant (F := Ideal) S1024x784 .f32 0x00000000#32) (ix2 i d)
      = ∑ k : Fin 1024, a (ix2 i k) * v (ix2 k d) := by
  refine (Ideal.matmul_constant_zero_apply dot_S1024x1024_S1024x784_S1024x784_1_0_0_1_n_n none a v (ix2 i d)).trans ?_
  rw [← Equiv.sum_comp (contrEquiv1 dot_S1024x1024_S1024x784_S1024x784_1_0_0_1_n_n 1024 rfl rfl).symm]
  refine Finset.sum_congr rfl fun k _ => ?_
  have hk := contrEquiv1_symm_val dot_S1024x1024_S1024x784_S1024x784_1_0_0_1_n_n 1024 rfl rfl k
  have el : dot_S1024x1024_S1024x784_S1024x784_1_0_0_1_n_n.lhsIdx (ix2 i d) ((contrEquiv1 dot_S1024x1024_S1024x784_S1024x784_1_0_0_1_n_n 1024 rfl rfl).symm k) = ix2 i k := funext fun a => Fin.ext (by
    match a with
    | ⟨0, _⟩ => exact mix_lhs0 _ _
    | ⟨1, _⟩ => exact (mix_lhs1 _ _).trans hk)
  have er : dot_S1024x1024_S1024x784_S1024x784_1_0_0_1_n_n.rhsIdx (ix2 i d) ((contrEquiv1 dot_S1024x1024_S1024x784_S1024x784_1_0_0_1_n_n 1024 rfl rfl).symm k) = ix2 k d := funext fun a => Fin.ext (by
    match a with
    | ⟨0, _⟩ => exact (mix_rhs0 _ _).trans hk
    | ⟨1, _⟩ => exact mix_rhs1 _ _)
  rw [el, er]

/-! ## The lane reductions and the column broadcast at an index -/

/-- Row i with the lane coordinate k put back is the entry (i, k). -/
theorem lift_row (h : S1024x1024.Reduces [1] S1024) (i k : Fin 1024) : h.lift (ix1 i) k = ix2 i k :=
  funext fun a => Fin.ext (by match a with | ⟨0, _⟩ => rfl | ⟨1, _⟩ => rfl)

/-- A lane maximum from minus infinity is, in row i, the maximum of the row's entries and minus infinity. -/
theorem laneMax_apply (v : FVec Ideal S1024x1024 .f32) (h : S1024x1024.Reduces [1] S1024) (hφ : FKind.Formats .f32)
    (hacc : (0xFF800000#32 : BitVec 32) = FKind.maximumf.neutral .f32 hφ) (i : Fin 1024) :
    multiReduction .maximumf [1] S1024 v 0xFF800000#32 h hφ hacc (ix1 i)
      = (Finset.univ : Finset (Fin 1024)).fold max negInf fun k => v (ix2 i k) := by
  refine (Ideal.multiReduction_maximumf_single v 0xFF800000#32 h hφ hacc (ix1 i)).trans ?_
  exact congrArg (fun f => (Finset.univ : Finset (Fin 1024)).fold max negInf f) (funext fun k => congrArg v (lift_row h i k))

/-- A lane sum from zero is, in row i, the sum of the row's entries. -/
theorem laneSum_apply (v : FVec Ideal S1024x1024 .f32) (h : S1024x1024.Reduces [1] S1024) (hφ : FKind.Formats .f32)
    (hacc : (0x00000000#32 : BitVec 32) = FKind.add.neutral .f32 hφ) (i : Fin 1024) :
    multiReduction .add [1] S1024 v 0x00000000#32 h hφ hacc (ix1 i) = ∑ k : Fin 1024, v (ix2 i k) := by
  refine (Ideal.multiReduction_add_single v 0x00000000#32 h hφ hacc (ix1 i)).trans ?_
  exact Finset.sum_congr rfl fun k _ => congrArg v (lift_row h i k)

/-- A vector of 1024 row values, turned into a column and spread along the rows, holds row i's value at (i, j). -/
theorem column_apply {α : Type} (u : S1024.Idx → α) (h1 : S1024.ShapeCasts S1024x1) (h2 : S1024x1.Broadcasts S1024x1024)
    (i j : Fin 1024) : broadcastTo S1024x1024 (shapeCast S1024x1 u h1) h2 (ix2 i j) = u (ix1 i) := by
  refine (broadcastTo_apply (shapeCast S1024x1 u h1) h2 (ix2 i j) (ix2 i (0 : Fin 1)) (fun a => ?_)).trans ?_
  · match a with
    | ⟨0, _⟩ => show i.val = if (1024 : Nat) = 1 then 0 else i.val; rw [if_neg (by decide)]
    | ⟨1, _⟩ => show 0 = if (1 : Nat) = 1 then 0 else j.val; rw [if_pos rfl]
  · exact shapeCast_apply u h1 (ix2 i (0 : Fin 1)) (ix1 i)
      (by rw [Shape.rowMajor_val_one, Shape.rowMajor_val_two]; show i.val = i.val * 1 + 0; omega)

/-- Dropping the block's unit axis: entry (r, d) of the matrix is entry (0, r, d) of the block. -/
theorem squeeze_apply {α : Type} (x0 : S1x1024x784.Idx → α) (h : S1x1024x784.ShapeCasts S1024x784) (r : Fin 1024) (d : Fin 784) :
    shapeCast S1024x784 x0 h (ix2 r d) = x0 (ix3 (0 : Fin 1) r d) :=
  shapeCast_apply x0 h (ix2 r d) (ix3 (0 : Fin 1) r d)
    (by rw [Shape.rowMajor_val_three, Shape.rowMajor_val_two]; show ((0 : Nat) * 1024 + r.val) * 784 + d.val = r.val * 784 + d.val; omega)

/-- Putting the unit axis back. -/
theorem unsqueeze_apply {α : Type} (u : S1024x784.Idx → α) (h : S1024x784.ShapeCasts S1x1024x784) (r : Fin 1024) (d : Fin 784) :
    shapeCast S1x1024x784 u h (ix3 (0 : Fin 1) r d) = u (ix2 r d) :=
  shapeCast_apply u h (ix3 (0 : Fin 1) r d) (ix2 r d)
    (by rw [Shape.rowMajor_val_three, Shape.rowMajor_val_two]; show r.val * 784 + d.val = ((0 : Nat) * 1024 + r.val) * 784 + d.val; omega)

/-! ## The body's arithmetic on the channel matrix, step by step -/

/-- The scaled matrix of inner products of the rows. -/
def scoresV (v : FVec Ideal S1024x784 .f32) : FVec Ideal S1024x1024 .f32 :=
  mulf (broadcast S1024x1024 (Scalar.ofBits (F := Ideal) .f32 0x3D000000#32))
    (matmul dot_S1024x784_S1024x784_S1024x1024_1_1_0_0_n_n none (truncf .bf16 v bitsLt_bf16_f32) (truncf .bf16 v bitsLt_bf16_f32)
      (constant (F := Ideal) S1024x1024 .f32 0x00000000#32))

/-- The row maxima: the lane maximum from minus infinity, joined with minus infinity. -/
def rowMaxV (s : FVec Ideal S1024x1024 .f32) : FVec Ideal S1024 .f32 :=
  maximumf (broadcast S1024 (Scalar.ofBits (F := Ideal) .f32 0xFF800000#32))
    (multiReduction .maximumf [1] S1024 s 0xFF800000#32 reduces_S1024x1024_S1024 (.inl rfl) rfl)

/-- The exponentials of the scores shifted by their row maxima. -/
def weightsV (s : FVec Ideal S1024x1024 .f32) : FVec Ideal S1024x1024 .f32 :=
  exp (subf s (broadcastTo S1024x1024 (shapeCast S1024x1 (rowMaxV s) shapeCasts_S1024_S1024x1) broadcasts_S1024x1_S1024x1024))

/-- The exponentials divided by their row sums. -/
def attnV (e : FVec Ideal S1024x1024 .f32) : FVec Ideal S1024x1024 .f32 :=
  divf e (broadcastTo S1024x1024
    (shapeCast S1024x1 (multiReduction .add [1] S1024 e 0x00000000#32 reduces_S1024x1024_S1024 (.inl rfl) rfl) shapeCasts_S1024_S1024x1)
    broadcasts_S1024x1_S1024x1024)

/-- The matrix plus the quotient matrix times the matrix. -/
def mixedV (v : FVec Ideal S1024x784 .f32) : FVec Ideal S1024x784 .f32 :=
  addf v (matmul dot_S1024x1024_S1024x784_S1024x784_1_0_0_1_n_n none (truncf .bf16 (attnV (weightsV (scoresV v))) bitsLt_bf16_f32)
    (truncf .bf16 v bitsLt_bf16_f32) (constant (F := Ideal) S1024x784 .f32 0x00000000#32))

/-- The body's stored value is these steps applied to its block with the unit axis dropped, the unit axis put back. -/
theorem pay_eq (x0 : Vec Ideal S1x1024x784 .f32) :
    k0_pay1 (F := Ideal) x0
      = shapeCast S1x1024x784 (mixedV (shapeCast S1024x784 x0 shapeCasts_S1x1024x784_S1024x784)) shapeCasts_S1024x784_S1x1024x784 := rfl

/-! ## Each step at an index, as the specification's function of the matrix -/

theorem scoresV_apply (v : FVec Ideal S1024x784 .f32) (i j : Fin 1024) :
    scoresV v (ix2 i j) = score (fun r d => v (ix2 r d)) i j := by
  unfold scoresV score
  rw [mulf_apply, broadcast_apply, gram_apply]
  rfl

theorem rowMaxV_apply (s : FVec Ideal S1024x1024 .f32) (i : Fin 1024) :
    rowMaxV s (ix1 i) = max negInf ((Finset.univ : Finset (Fin 1024)).fold max negInf fun k => s (ix2 i k)) := by
  unfold rowMaxV
  rw [maximumf_apply, broadcast_apply]
  exact congrArg (max negInf) (laneMax_apply s reduces_S1024x1024_S1024 (.inl rfl) rfl i)

theorem weightsV_apply (s : FVec Ideal S1024x1024 .f32) (i j : Fin 1024) :
    weightsV s (ix2 i j) = Ideal.exp (s (ix2 i j) - rowMaxV s (ix1 i)) := by
  unfold weightsV
  show Ideal.exp (s (ix2 i j) - broadcastTo S1024x1024 (shapeCast S1024x1 (rowMaxV s) _) _ (ix2 i j)) = _
  rw [column_apply]

theorem attnV_apply (e : FVec Ideal S1024x1024 .f32) (i j : Fin 1024) :
    attnV e (ix2 i j) = Ideal.div (e (ix2 i j)) (∑ k : Fin 1024, e (ix2 i k)) := by
  unfold attnV
  rw [divf_apply, column_apply]
  exact congrArg (Ideal.div (e (ix2 i j))) (laneSum_apply e reduces_S1024x1024_S1024 (.inl rfl) rfl i)

theorem weights_eq (v : FVec Ideal S1024x784 .f32) (i j : Fin 1024) :
    weightsV (scoresV v) (ix2 i j) = weight (fun r d => v (ix2 r d)) i j := by
  rw [weightsV_apply, rowMaxV_apply]
  simp only [scoresV_apply]
  rfl

theorem attn_eq (v : FVec Ideal S1024x784 .f32) (i j : Fin 1024) :
    attnV (weightsV (scoresV v)) (ix2 i j) = attn (fun r d => v (ix2 r d)) i j := by
  rw [attnV_apply]
  simp only [weights_eq]
  rfl

theorem mixedV_apply (v : FVec Ideal S1024x784 .f32) (i : Fin 1024) (d : Fin 784) :
    mixedV v (ix2 i d) = v (ix2 i d) + mix (fun r d => v (ix2 r d)) i d := by
  unfold mixedV
  rw [addf_apply, mixProd_apply]
  refine congrArg (v (ix2 i d) + ·) ?_
  unfold mix
  refine Finset.sum_congr rfl fun k _ => ?_
  show attnV (weightsV (scoresV v)) (ix2 i k) * v (ix2 k d) = _
  rw [attn_eq]

/-- THE BODY AT AN INDEX: entry (0, r, d) of what the body stores is entry (0, r, d) of its block plus the
    mixture of the block's channel matrix at (r, d). -/
theorem pay_apply (x0 : Vec Ideal S1x1024x784 .f32) (r : Fin 1024) (d : Fin 784) :
    k0_pay1 (F := Ideal) x0 (ix3 (0 : Fin 1) r d)
      = x0 (ix3 (0 : Fin 1) r d) + mix (fun r' d' => x0 (ix3 (0 : Fin 1) r' d')) r d := by
  rw [pay_eq, unsqueeze_apply, mixedV_apply]
  simp only [squeeze_apply]

end Cert.KernelIdeal.Body

end
-- ==== Proof.Blocks.lean ====
/-
  From what each grid point writes to the whole result array, and through the final unflattening.

  The grid has one point per batch element. Point t fetches batch element t of the flattened input, a
  [1, 1024, 784] block, and writes back the body's value of it as batch element t of the region's output. So what
  point t writes is block t of ONE function of the flattened input, input plus mixture; the 32 blocks tile the output,
  so after the region the output is that function; the host then unflattens the positions. Before the region the
  host flattened the positions of the input.
-/
import proofs.«147834_j25323127177327_1_alg».proof.Proof.Gen.KernelIdeal.Frame
import proofs.«147834_j25323127177327_1_alg».proof.Proof.Body
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.ChannelAttention

variable (m : (ℓ : Loc nD τ sig) → Buf (Elt Ideal) ℓ) (ρ : Dev nD → PrngReg)

theorem hz : (![0, 0, 0] : Fin 3 → Nat) = fun _ => 0 := funext fun a => by fin_cases a <;> rfl

/-- Both windows' blocks at point t are batch element t: block index (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at point t, at (0, r, d), is the flattened input at (t, r, d). -/
theorem iblk_apply (c : Dev nD) (t : Fin cfg0.N) (y : S1x1024x784.Idx) (k : S32x1024x784.Idx)
    (hk0 : (k 0).val = t.val) (hk1 : (k 1).val = (y 1).val) (hk2 : (k 2).val = (y 2).val) :
    (iblk m c 0 t : Vec Ideal S1x1024x784 .f32) y = (V m c main_v0 : S32x1024x784.Idx → EReal) k := by
  obtain ⟨e0, e1, e2, e3, e4, e5⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * (y 0).val = (k 0).val; have hy : (y 0).val < 1 := (y 0).isLt; omega
  | ⟨1, _⟩ => show win0_0.index t (1 : Fin 3) * 1024 + 1 * (y 1).val = (k 1).val; omega
  | ⟨2, _⟩ => show win0_0.index t (2 : Fin 3) * 784 + 1 * (y 2).val = (k 2).val; omega

/-- The body's value of a block that is batch element b of an array X is, at (0, r, d), input plus mixture of X
    at (b, r, d). -/
theorem block_eq (X : S32x1024x784.Idx → EReal) (x0 : Vec Ideal S1x1024x784 .f32) (b : Fin 32)
    (hx : ∀ (r : Fin 1024) (d : Fin 784), x0 (ix3 (0 : Fin 1) r d) = X (ix3 b r d))
    (y : S1x1024x784.Idx) (k : S32x1024x784.Idx)
    (hk0 : (k 0).val = b.val) (hk1 : (k 1).val = (y 1).val) (hk2 : (k 2).val = (y 2).val) :
    k0_pay1 (F := Ideal) x0 y = residual X k := by
  obtain ⟨z, r, d, rfl⟩ : ∃ (z : Fin 1) (r : Fin 1024) (d : Fin 784), y = ix3 z r d := ⟨y 0, y 1, y 2, eq_ix3 y⟩
  obtain rfl : z = 0 := Subsingleton.elim _ _
  have hk : k = ix3 b r d := funext fun a => Fin.ext (by
    match a with
    | ⟨0, _⟩ => exact hk0
    | ⟨1, _⟩ => exact hk1
    | ⟨2, _⟩ => exact hk2)
  have hM : (fun (r' : Fin 1024) (d' : Fin 784) => x0 (ix3 (0 : Fin 1) r' d')) = slab X b :=
    funext fun r' => funext fun d' => hx r' d'
  rw [hk, Body.pay_apply, hM, hx r d]
  rfl

/-- WHAT POINT t WRITES BACK is block t of input plus mixture of the flattened input. -/
theorem flushed_eq (c : Dev nD) (t : Fin cfg0.N) :
    (dats m 0 c).flushed 1 t
      = ((cfg0.win 1).blk t).view.read (Elt Ideal) (residual (V m c main_v0 : S32x1024x784.Idx → EReal)) := by
  show (cfg0.win 1).cut (grid0.coords t) ((dats m 0 c).after 1 t) = _
  rw [after0_1]
  unfold out0_1
  rw [View.canon_unit_zero hz]
  simp only [View.ld_unit_zero (S := S1x1024x784) hz]
  obtain ⟨e0, e1, e2, e3, e4, e5⟩ := idx_facts t
  have hN : cfg0.N = 32 := N_0
  have ht : t.val < 32 := by have := t.isLt; omega
  funext j
  show k0_pay1 (F := Ideal) (iblk m c 0 t) j
    = residual (V m c main_v0 : S32x1024x784.Idx → EReal) (((cfg0.win 1).blk t).view.emb j)
  refine block_eq (V m c main_v0) (iblk m c 0 t) ⟨t.val, ht⟩ (fun r d => ?_) j _ ?_ ?_ ?_
  · exact iblk_apply m c t (ix3 (0 : Fin 1) r d) (ix3 ⟨t.val, ht⟩ r d) rfl rfl rfl
  · show win0_1.index t (0 : Fin 3) * 1 + 1 * (j 0).val = t.val; have hj : (j 0).val < 1 := (j 0).isLt; omega
  · show win0_1.index t (1 : Fin 3) * 1024 + 1 * (j 1).val = (j 1).val; omega
  · show win0_1.index t (2 : Fin 3) * 784 + 1 * (j 2).val = (j 2).val; omega

/-- An index of the output is in point t's block iff each coordinate is in the block's range on its axis. -/
theorem mem_blk (t : Fin cfg0.N) (i : S32x1024x784.Idx) :
    i ∈ ((cfg0.win 1).blk t).view.set ↔ ∀ a : Fin 3, win0_1.index t a * S1x1024x784.size a ≤ (i a).val ∧ (i a).val < win0_1.index t a * S1x1024x784.size a + S1x1024x784.size a := by
  show i ∈ ((View.whole main_v1).slice (win0_1.rect t)).set ↔ _
  rw [View.set_slice_whole, Rect.mem_set_unit]
  exact Iff.rfl

/-- Every index (b, r, d) of the output is in the block of point b. -/
theorem cover (i : S32x1024x784.Idx) :
    ∃ t : Fin cfg0.N, (cfg0.win 1).flush t = true ∧ i ∈ ((cfg0.win 1).blk t).view.set := by
  have hN : cfg0.N = 32 := N_0
  have h0 : (i 0).val < 32 := (i 0).isLt
  have h1 : (i 1).val < 1024 := (i 1).isLt
  have h2 : (i 2).val < 784 := (i 2).isLt
  have hlt : (i 0).val < cfg0.N := by omega
  obtain ⟨e0, e1, e2, e3, e4, e5⟩ := idx_facts ⟨(i 0).val, hlt⟩
  have e3' : win0_1.index ⟨(i 0).val, hlt⟩ (0 : Fin 3) = (i 0).val := e3
  refine ⟨⟨(i 0).val, hlt⟩, flush0_1 _, ?_⟩
  rw [mem_blk]
  intro a
  match a with
  | ⟨0, _⟩ => show win0_1.index ⟨(i 0).val, hlt⟩ (0 : Fin 3) * 1 ≤ (i 0).val ∧ (i 0).val < win0_1.index ⟨(i 0).val, hlt⟩ (0 : Fin 3) * 1 + 1; omega
  | ⟨1, _⟩ => show win0_1.index ⟨(i 0).val, hlt⟩ (1 : Fin 3) * 1024 ≤ (i 1).val ∧ (i 1).val < win0_1.index ⟨(i 0).val, hlt⟩ (1 : Fin 3) * 1024 + 1024; omega
  | ⟨2, _⟩ => show win0_1.index ⟨(i 0).val, hlt⟩ (2 : Fin 3) * 784 ≤ (i 2).val ∧ (i 2).val < win0_1.index ⟨(i 0).val, hlt⟩ (2 : Fin 3) * 784 + 784; omega

/-- THE REGION'S OUTPUT after the run: input plus mixture of the flattened input. -/
theorem final (c : Dev nD) :
    (dats m 0 c).arrAt 1 cfg0.N = residual (V m c main_v0 : S32x1024x784.Idx → EReal) :=
  (dats m 0 c).arrAt_eq_of_cover 1 (residual (V m c main_v0 : S32x1024x784.Idx → EReal)) (fun t _ => flushed_eq m c t) cover

/-- The region finds the flattened input: the host flattened the positions before it. -/
theorem V_main_v0 (c : Dev nD) :
    (V m c main_v0 : S32x1024x784.Idx → EReal)
      = shapeCast S32x1024x784 (m ((c : Thread nD τ).loc main_arg0) : S32x1024x28x28.Idx → EReal) shapeCasts_S32x1024x28x28_S32x1024x784 := by
  show StableHlo.after hostOps0 (fun b => m (c, b)) (Proc.devRef .tc main_v0) = _
  after_results
  rfl

/-- Unflattening input plus mixture of the flattened input is the specification's result. -/
theorem unflatten_residual (h1 : Arr4.ShapeCasts Arr3) (h2 : Arr3.ShapeCasts Arr4) (x : Arr4.Idx → EReal) :
    shapeCast Arr4 (residual (shapeCast Arr3 x h1)) h2 = result h1 h2 x := by
  funext i
  show shapeCast Arr4 (shapeCast Arr3 x h1) h2 i + shapeCast Arr4 (mixAll (shapeCast Arr3 x h1)) h2 i = _
  rw [shapeCast_shapeCast]
  rfl

/-- The result buffer after the host's unflattening of the region's output. -/
theorem tail_eq (c : Dev nD) :
    Pipeline.afterTail₀ cfgs (dats m) 0 (V0 m) [hostOps1] c main_v2
      = result shapeCasts_S32x1024x28x28_S32x1024x784 shapeCasts_S32x1024x784_S32x1024x28x28
          (m ((c : Thread nD τ).loc main_arg0) : S32x1024x28x28.Idx → EReal) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = residual (V m c main_v0 : S32x1024x784.Idx → EReal) :=
    (Pipeline.withArrays_arr spec0 launch0.win.arr_inj c _ _ 1).trans (final m c)
  rw [hw, V_main_v0]
  exact unflatten_residual _ _ _

/-! ## The run, read -/

/-- Every weakly fair execution of the idealized kernel program terminates with its result buffer at the
    specification's result of the input, the input unchanged. -/
theorem run : θ_run defs (onTc (τ := τ) (main (F := Ideal))) ⟨m, fun _ => 0, ρ⟩ fun r => ∀ c : Dev nD,
      r.2.mem ((c : Thread nD τ).loc main_v2)
        = result shapeCasts_S32x1024x28x28_S32x1024x784 shapeCasts_S32x1024x784_S32x1024x28x28
            (m ((c : Thread nD τ).loc main_arg0) : S32x1024x28x28.Idx → EReal)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Blocks

end
-- ==== Proof.RefStages.lean ====
/-
  The reference program, stage by stage, is the specification.

  The reference flattens the positions, forms for every batch element the matrix of inner products of the channel
  rows (a batched contraction over the 784 positions), scales it, takes each row's maximum (a reduction over the last
  axis from minus infinity, joined with minus infinity once more), exponentiates the shifted scores, divides by the row
  sums (a reduction from zero), contracts the quotients with the channel rows over the 1024 channels, unflattens,
  and adds the input. Read at the index (b, i, j) or (b, i, d), each stage is the specification's function of batch
  element b of the flattened input.
-/
import proofs.«147834_j25323127177327_1_alg».proof.Proof.Gen.ReferenceIdeal.Read
import proofs.«147834_j25323127177327_1_alg».proof.Proof.Spec
import Idealize.ShloMosaic.PureOps.Ideal.Laws
import Idealize.ShloMosaic.Lib.ValueIdx

noncomputable section

namespace Cert.ReferenceIdeal.Stages

open Idealize.ShloMosaic Idealize.ShloMosaic.ValueIdx Cert.ReferenceIdeal Cert.ReferenceIdeal.Gen Cert.ReferenceIdeal.Read
open Cert.ChannelAttention

variable (x : (⟨S32x1024x28x28, .f32⟩ : BufTy).Contents (Elt Ideal))

/-- The flattened input. -/
abbrev flat : Arr3.Idx → EReal := val_main_v0 (F := Ideal) x

/-! ## The indices the stages read, in coordinates -/

theorem lidx1 (b : Fin 32) (i j : Fin 1024) (k : Fin 784) : lidx_main_v1 (ix3 b i j) k = ix3 b i k :=
  funext fun a => by match a with | ⟨0, _⟩ => rfl | ⟨1, _⟩ => rfl | ⟨2, _⟩ => rfl
theorem ridx1 (b : Fin 32) (i j : Fin 1024) (k : Fin 784) : ridx_main_v1 (ix3 b i j) k = ix3 b j k :=
  funext fun a => by match a with | ⟨0, _⟩ => rfl | ⟨1, _⟩ => rfl | ⟨2, _⟩ => rfl
theorem idx78 (b : Fin 32) (i j : Fin 1024) : idx_main_v7 (idx_main_v8 (ix3 b i j)) = ix2 b i :=
  funext fun a => by match a with | ⟨0, _⟩ => rfl | ⟨1, _⟩ => rfl
theorem idx1213 (b : Fin 32) (i j : Fin 1024) : idx_main_v12 (idx_main_v13 (ix3 b i j)) = ix2 b i :=
  funext fun a => by match a with | ⟨0, _⟩ => rfl | ⟨1, _⟩ => rfl
theorem idx11 (b : Fin 32) (i k : Fin 1024) : idx_main_v11 (ix2 b i) k = ix3 b i k :=
  funext fun a => by match a with | ⟨0, _⟩ => rfl | ⟨1, _⟩ => rfl | ⟨2, _⟩ => rfl
theorem lidx15 (b : Fin 32) (i : Fin 1024) (d : Fin 784) (k : Fin 1024) : lidx_main_v15 (ix3 b i d) k = ix3 b i k :=
  funext fun a => by match a with | ⟨0, _⟩ => rfl | ⟨1, _⟩ => rfl | ⟨2, _⟩ => rfl
theorem ridx15 (b : Fin 32) (i : Fin 1024) (d : Fin 784) (k : Fin 1024) : ridx_main_v15 (ix3 b i d) k = ix3 b k d :=
  funext fun a => by match a with | ⟨0, _⟩ => rfl | ⟨1, _⟩ => rfl | ⟨2, _⟩ => rfl

/-- The reduction over the last axis, as the library's one-axis form wants it. -/
theorem redRow : S32x1024x1024.Reduces [2] S32x1024 := by decide

/-- Row (b, i) with the last coordinate k put back is the entry (b, i, k). -/
theorem lift_row (b : Fin 32) (i k : Fin 1024) : redRow.lift (ix2 b i) k = ix3 b i k :=
  funext fun a => Fin.ext (by match a with | ⟨0, _⟩ => rfl | ⟨1, _⟩ => rfl | ⟨2, _⟩ => rfl)

/-! ## The stages -/

/-- The scaled scores of batch element b. -/
theorem ref_score (b : Fin 32) (i j : Fin 1024) :
    val_main_v3 (F := Ideal) x (ix3 b i j) = score (slab (flat x) b) i j := by
  rw [val_main_v3_apply, val_main_v2_apply, val_main_cst_apply, val_main_v1_apply]
  simp only [lidx1, ridx1]
  rfl

/-- The row maxima. -/
theorem ref_rowMax (b : Fin 32) (i : Fin 1024) :
    val_main_v6 (F := Ideal) x (ix2 b i) = rowMax (slab (flat x) b) i := by
  have h4 : val_main_v4 (F := Ideal) x (ix2 b i)
      = (Finset.univ : Finset (Fin 1024)).fold max negInf fun k => score (slab (flat x) b) i k := by
    unfold val_main_v4
    refine (Host.reduce_eq_fold_single (α := EReal) (s := S32x1024x1024) (t := S32x1024) (u := S_)
      (FloatOps.maximumf (F := Ideal) (φ := .f32)) (val_main_v3 (F := Ideal) x : S32x1024x1024.Idx → EReal)
      (val_main_cst_0 (F := Ideal) : S_.Idx → EReal)
      reducesTo_S32x1024x1024_S32x1024_d2 redRow h_S_ (ix2 b i)).trans ?_
    exact congrArg (fun f => (Finset.univ : Finset (Fin 1024)).fold max negInf f)
      (funext fun k => (congrArg (val_main_v3 (F := Ideal) x) (lift_row b i k)).trans (ref_score x b i k))
  rw [val_main_v6_apply, val_main_v5_apply, val_main_cst_1_apply, h4]
  rfl

/-- The exponentials of the shifted scores. -/
theorem ref_weight (b : Fin 32) (i j : Fin 1024) :
    val_main_v10 (F := Ideal) x (ix3 b i j) = weight (slab (flat x) b) i j := by
  rw [val_main_v10_apply, val_main_v9_apply, val_main_v8_apply, val_main_v7_apply, idx78, ref_score, ref_rowMax]
  rfl

/-- The row sums of the exponentials: the sum from zero is the sum. -/
theorem ref_total (b : Fin 32) (i : Fin 1024) :
    val_main_v11 (F := Ideal) x (ix2 b i) = total (slab (flat x) b) i := by
  rw [val_main_v11_apply, val_main_cst_2_apply]
  simp only [idx11, ref_weight]
  show Ideal.ofBits .f32 0x00000000#32 + _ = _
  rw [Ideal.ofBits_zero_f32, zero_add]
  rfl

/-- The quotients. -/
theorem ref_attn (b : Fin 32) (i j : Fin 1024) :
    val_main_v14 (F := Ideal) x (ix3 b i j) = attn (slab (flat x) b) i j := by
  rw [val_main_v14_apply, val_main_v13_apply, val_main_v12_apply, idx1213, ref_weight, ref_total]
  rfl

/-- The mixture. -/
theorem ref_mix (b : Fin 32) (i : Fin 1024) (d : Fin 784) :
    val_main_v15 (F := Ideal) x (ix3 b i d) = mix (slab (flat x) b) i d := by
  rw [val_main_v15_apply]
  simp only [lidx15, ridx15, ref_attn]
  rfl

/-- So the contraction stage is the mixture of every batch element of the flattened input. -/
theorem ref_mixAll : val_main_v15 (F := Ideal) x = mixAll (flat x) := by
  funext i
  obtain ⟨b, r, d, rfl⟩ : ∃ (b : Fin 32) (r : Fin 1024) (d : Fin 784), i = ix3 b r d := ⟨i 0, i 1, i 2, eq_ix3 i⟩
  rw [mixAll_ix3]
  exact ref_mix x b r d

/-- And the reference's result is the specification's. -/
theorem ref_result : val_main_v17 (F := Ideal) x
    = result shapeCasts_S32x1024x28x28_S32x1024x784 shapeCasts_S32x1024x784_S32x1024x28x28 x := by
  unfold val_main_v17 val_main_v16
  rw [ref_mixAll]
  rfl

end Cert.ReferenceIdeal.Stages

end
-- ==== Proof.lean ====
/-
  The kernel program and the reference compute one function of the input on the extended reals: channel attention
  with a residual (Proof/Spec.lean). For each of the 32 batch elements, with M its 1024 by 784 channel matrix: the
  scores are one thirty-second of M times its transpose; each row of scores is shifted by its maximum and
  exponentiated; the exponentials are divided by their row sums; the result is M plus the quotient matrix times M.

  The kernel program flattens the positions, computes one batch element per grid point on its whole channel matrix,
  and unflattens; the reference does the same with batched contractions and reductions over the last axis. The two
  differ only in spelling: a product into a zero accumulator against a contraction, a lane reduction against a
  reduction over the last axis, a tiling by batch element, and the residual added before the unflattening instead
  of after it. None of these needs the inputs to be finite: sums and maxima of extended reals may be taken in any
  order, and both programs apply the same operations to the same entries.

  Proof/Body.lean reads the kernel body at an index, Proof/Blocks.lean goes from blocks to the array and through the
  unflattening, Proof/RefStages.lean reads the reference stage by stage. The kernel was not rewritten by the
  idealization, so the preservation claim is trivial.
-/
import proofs.«147834_j25323127177327_1_alg».proof.Defs
import proofs.«147834_j25323127177327_1_alg».proof.Proof.Gen.Kernel
import proofs.«147834_j25323127177327_1_alg».proof.Proof.Gen.Kernel.Frame
import proofs.«147834_j25323127177327_1_alg».proof.Proof.Gen.KernelIdeal
import proofs.«147834_j25323127177327_1_alg».proof.Proof.Gen.KernelIdeal.Frame
import proofs.«147834_j25323127177327_1_alg».proof.Proof.Gen.ReferenceIdeal
import proofs.«147834_j25323127177327_1_alg».proof.Proof.Gen.ReferenceIdeal.Run
import proofs.«147834_j25323127177327_1_alg».proof.Proof.Gen.ReferenceIdeal.Read
import proofs.«147834_j25323127177327_1_alg».proof.Proof.Gen.Pre_finite_inputs
import proofs.«147834_j25323127177327_1_alg».proof.Proof.Blocks
import proofs.«147834_j25323127177327_1_alg».proof.Proof.RefStages
import Idealize.ShloMosaic.Adequacy
import Idealize.ShloMosaic.Init

noncomputable section

namespace Cert.Proof

open Idealize.ShloMosaic Idealize.SL.Sem

/-- The word-level kernel program runs and keeps its input. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its input: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From inputs that agree, both programs end with their result at the specification's result of the input. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _).trans ?_
  refine (Cert.ReferenceIdeal.Stages.ref_result _).trans ?_
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
